-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x72x120 : Shape := ⟨3, ![16384, 72, 120]⟩
abbrev S_ : Shape := ⟨0, ![]⟩

class Facts : Prop where
  bcast_S_S16384x72x120 : S_.BroadcastsInDim S16384x72x120 (![] : Fin 0 → Fin S16384x72x120.rank)
  reducesTo_S16384x72x120_S_d0_1_2 : S16384x72x120.ReducesTo [0, 1, 2] S_
  h_S_ : 0 < S_.numel

variable [Facts]

def fn {F : FTy → Type} [FloatOps F] (main_arg0 : FVec F S16384x72x120 .f32) (main_arg1 : FVec F S16384x72x120 .f32) : IVec S_ 1 :=
  let main_v0 : FVec F S16384x72x120 .f32 := Host.absf main_arg0
  let main_cst : FVec F S_ .f32 := constant S_ .f32 0x7F800000#32
  let main_v1 : FVec F S16384x72x120 .f32 := broadcastInDim S16384x72x120 ![] bcast_S_S16384x72x120 main_cst
  let main_v2 : IVec S16384x72x120 1 := cmpf .olt main_v0 main_v1
  let main_c : IVec S_ 1 := constantI S_ 1 1#1
  let main_v3 : IVec S_ 1 := (fun x v => Host.reduce IntOp.andi x v reducesTo_S16384x72x120_S_d0_1_2 h_S_) main_v2 main_c
  let main_v4 : FVec F S16384x72x120 .f32 := Host.absf main_arg1
  let main_cst_0 : FVec F S_ .f32 := constant S_ .f32 0x7F800000#32
  let main_v5 : FVec F S16384x72x120 .f32 := broadcastInDim S16384x72x120 ![] bcast_S_S16384x72x120 main_cst_0
  let main_v6 : IVec S16384x72x120 1 := cmpf .olt main_v4 main_v5
  let main_c_1 : IVec S_ 1 := constantI S_ 1 1#1
  let main_v7 : IVec S_ 1 := (fun x v => Host.reduce IntOp.andi x v reducesTo_S16384x72x120_S_d0_1_2 h_S_) main_v6 main_c_1
  let main_v8 : IVec S_ 1 := andi main_v3 main_v7
  main_v8
-- ==== Kernel.lean ====
abbrev S16384x72x120 : Shape := ⟨3, ![16384, 72, 120]⟩
abbrev S2x72x120 : Shape := ⟨3, ![2, 72, 120]⟩
abbrev S256x72x120 : Shape := ⟨3, ![256, 72, 120]⟩
abbrev S1x72x120 : Shape := ⟨3, ![1, 72, 120]⟩
abbrev S72x120 : Shape := ⟨2, ![72, 120]⟩
abbrev S_ : Shape := ⟨0, ![]⟩
abbrev S24x3x120 : Shape := ⟨3, ![24, 3, 120]⟩
abbrev S24x120 : Shape := ⟨2, ![24, 120]⟩

abbrev nBuf : Space → Nat
  | .hbm => 11
  | .vmem => 7
  | .smem => 0
  | _ => 0

abbrev bufTy : (tb : Table) → Fin (tcTables nBuf tb) → BufTy
  | .hbm, ⟨0, _⟩ => ⟨S16384x72x120, .f32⟩
  | .hbm, ⟨1, _⟩ => ⟨S16384x72x120, .f32⟩
  | .hbm, ⟨2, _⟩ => ⟨S2x72x120, .f32⟩
  | .hbm, ⟨3, _⟩ => ⟨S_, .f32⟩
  | .hbm, ⟨4, _⟩ => ⟨S72x120, .f32⟩
  | .hbm, ⟨5, _⟩ => ⟨S24x3x120, .f32⟩
  | .hbm, ⟨6, _⟩ => ⟨S_, .f32⟩
  | .hbm, ⟨7, _⟩ => ⟨S24x120, .f32⟩
  | .hbm, ⟨8, _⟩ => ⟨S24x120, .f32⟩
  | .hbm, ⟨9, _⟩ => ⟨S_, .f32⟩
  | .hbm, ⟨10, _⟩ => ⟨S_, .f32⟩
  | .local _ .vmem, ⟨0, _⟩ => ⟨S256x72x120, .f32⟩
  | .local _ .vmem, ⟨1, _⟩ => ⟨S256x72x120, .f32⟩
  | .local _ .vmem, ⟨2, _⟩ => ⟨S256x72x120, .f32⟩
  | .local _ .vmem, ⟨3, _⟩ => ⟨S256x72x120, .f32⟩
  | .local _ .vmem, ⟨4, _⟩ => ⟨S1x72x120, .f32⟩
  | .local _ .vmem, ⟨5, _⟩ => ⟨S1x72x120, .f32⟩
  | .local _ .vmem, ⟨6, _⟩ => ⟨S72x120, .f32⟩
  | _, _ => ⟨S16384x72x120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x72x120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x72x120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x72x120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S72x120_S72x120_0_0 : ∀ a, (![0, 0] : Fin 2 → Nat) a + S72x120.size a ≤ S72x120.size a
  h_S72x120 : 0 < S72x120.numel
  shapeCasts_S72x120_S72x120 : S72x120.ShapeCasts S72x120
  inb_S256x72x120_S256x72x120_0_0_0 : ∀ a, (![0, 0, 0] : Fin 3 → Nat) a + S256x72x120.size a ≤ S256x72x120.size a
  h_S256x72x120 : 0 < S256x72x120.numel
  reduces_S256x72x120_S72x120 : S256x72x120.Reduces [0] S72x120
  inb_S1x72x120_S1x72x120_0_0_0 : ∀ a, (![0, 0, 0] : Fin 3 → Nat) a + S1x72x120.size a ≤ S1x72x120.size a
  h_S1x72x120 : 0 < S1x72x120.numel
  shapeCasts_S1x72x120_S72x120 : S1x72x120.ShapeCasts S72x120
  shapeCasts_S72x120_S1x72x120 : S72x120.ShapeCasts S1x72x120
  reducesTo_S2x72x120_S72x120_d0 : S2x72x120.ReducesTo [0] S72x120
  h_S_ : 0 < S_.numel
  shapeCasts_S72x120_S24x3x120 : S72x120.ShapeCasts S24x3x120
  reducesTo_S24x3x120_S24x120_d1 : S24x3x120.ReducesTo [1] S24x120
  reducesTo_S24x120_S_d0_1 : S24x120.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x72x120.size a ≤ S16384x72x120.size a
  hwx0_0 : ∀ i : grid0.Coords, EltTy.bits .f32 = 32 ∨ (Rect.block (s := S16384x72x120) S256x72x120.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x72x120.size a ≤ S16384x72x120.size a
  hwx0_1 : ∀ i : grid0.Coords, EltTy.bits .f32 = 32 ∨ (Rect.block (s := S16384x72x120) S256x72x120.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x72x120.size a ≤ S2x72x120.size a
  hwx0_2 : ∀ i : grid0.Coords, EltTy.bits .f32 = 32 ∨ (Rect.block (s := S2x72x120) S1x72x120.size (cc0_transform_2 i) (hinb0_2 i)).WholeWords (EltTy.packing .f32)

variable [Facts₀]

abbrev win0_0 : Pipeline.Window sig grid0 :=
  Pipeline.Window.ofSpec (Memref.whole main_arg0) S256x72x120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x72x120.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x72x120.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x72x120 : Shape := ⟨3, ![16384, 72, 120]⟩
abbrev S16384x24x3x120 : Shape := ⟨4, ![16384, 24, 3, 120]⟩
abbrev S_ : Shape := ⟨0, ![]⟩
abbrev S24x120 : Shape := ⟨2, ![24, 120]⟩

abbrev nBuf : Space → Nat
  | .hbm => 10
  | .vmem => 0
  | .smem => 0
  | _ => 0

abbrev bufTy : (tb : Table) → Fin (tcTables nBuf tb) → BufTy
  | .hbm, ⟨0, _⟩ => ⟨S16384x72x120, .f32⟩
  | .hbm, ⟨1, _⟩ => ⟨S16384x72x120, .f32⟩
  | .hbm, ⟨2, _⟩ => ⟨S16384x72x120, .f32⟩
  | .hbm, ⟨3, _⟩ => ⟨S16384x24x3x120, .f32⟩
  | .hbm, ⟨4, _⟩ => ⟨S16384x24x3x120, .f32⟩
  | .hbm, ⟨5, _⟩ => ⟨S_, .f32⟩
  | .hbm, ⟨6, _⟩ => ⟨S24x120, .f32⟩
  | .hbm, ⟨7, _⟩ => ⟨S24x120, .f32⟩
  | .hbm, ⟨8, _⟩ => ⟨S_, .f32⟩
  | .hbm, ⟨9, _⟩ => ⟨S_, .f32⟩
  | _, _ => ⟨S16384x72x120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  shapeCasts_S16384x72x120_S16384x24x3x120 : S16384x72x120.ShapeCasts S16384x24x3x120
  reducesTo_S16384x24x3x120_S24x120_d0_2 : S16384x24x3x120.ReducesTo [0, 2] S24x120
  h_S_ : 0 < S_.numel
  reducesTo_S24x120_S_d0_1 : S24x120.ReducesTo [0, 1] S_

variable [Facts₀]

class Facts : Prop extends Facts₀ where

variable [Facts]
-- ==== Proof.SumSquares.lean ====
/-
  The mathematics of the per-joint loss, apart from any program.

  For two arrays `x`, `y` of shape [16384, 72, 120] (batch, channel, time), the 72 channels being 24 joints of 3
  coordinates each (channel `3 n + d` is coordinate `d` of joint `n`), the quantity under the square root is

      jointSq x y (n, t) = ∑ d < 3, ∑ b < 16384, (x (b, 3 n + d, t) - y (b, 3 n + d, t))²

  on the extended reals. Everything here is re-association and re-indexing of finite sums in a commutative monoid:
  no distributivity, no cancellation, so no finiteness of the entries is needed.

  * `rowSq` lists the squared differences of one (channel, time) column along the batch axis by a natural number, zero past
    the end, so that partial sums over initial segments can be written with `Finset.range`.
  * `range_add_tile` : a partial sum over `a + 256` rows is the partial sum over `a` rows plus the next tile of 256 rows.
  * `halves` : the two half-batch sums (rows [0, 8192) and [8192, 16384)) add up to the sum over the whole batch.
  * `sum_filter_joint` : the sum over the indices (b, n', d, t') of [16384, 24, 3, 120] that keep (n', t') = (n, t) is the
    double sum over d and b.
  * `lossTail` : the last two steps, shared by both programs: the square root entry by entry and the sum of all roots.
-/
import Mathlib.Data.EReal.Basic
import Mathlib.Algebra.BigOperators.Group.Finset.Basic
import Mathlib.Algebra.BigOperators.Fin
import Idealize.ShloMosaic.Lib.ValueIdx

noncomputable section

open scoped BigOperators

namespace Cert.SumSquares

open Idealize.ShloMosaic Idealize.ShloMosaic.ValueIdx

/-- The batched array's index set, the joint-split one, and the result's. -/
abbrev Arr : Shape := ⟨3, ![16384, 72, 120]⟩
abbrev Split : Shape := ⟨4, ![16384, 24, 3, 120]⟩
abbrev Joint : Shape := ⟨2, ![24, 120]⟩

/-- The squared difference of two arrays at one index. -/
def sqd {ι : Type} (x y : ι → EReal) (i : ι) : EReal := (x i - y i) * (x i - y i)

/-- The squared difference depends only on the two entries. -/
theorem sqd_congr {ι κ : Type} (x y : ι → EReal) (x' y' : κ → EReal) (i : ι) (k : κ) (hx : x i = x' k) (hy : y i = y' k) :
    sqd x y i = sqd x' y' k := by
  unfold sqd
  rw [hx, hy]

/-- Channel `3 n + d`: coordinate `d` of joint `n`. -/
abbrev chan (n : Fin 24) (d : Fin 3) : Fin 72 := ⟨3 * n.val + d.val, by omega⟩

/-- The sum of squared differences over the batch and the three coordinates of joint `n`, at time `t`. -/
def jointSq (x y : Arr.Idx → EReal) : Joint.Idx → EReal :=
  fun j => ∑ d : Fin 3, ∑ b : Fin 16384, sqd x y (ix3 b (chan (j 0) d) (j 1))

/-- The squared differences of column (p, q) listed along the batch axis, zero past the last row. -/
def rowSq (x y : Arr.Idx → EReal) (p : Fin 72) (q : Fin 120) (b : ℕ) : EReal :=
  if h : b < 16384 then sqd x y (ix3 ⟨b, h⟩ p q) else 0

theorem rowSq_of_lt (x y : Arr.Idx → EReal) (p : Fin 72) (q : Fin 120) (b : ℕ) (h : b < 16384) :
    rowSq x y p q b = sqd x y (ix3 ⟨b, h⟩ p q) := dif_pos h

/-- A partial sum over `a + 256` consecutive terms from `base` is the partial sum over the first `a` plus the next
    256, the latter written over `Fin 256`. -/
theorem range_add_tile {M : Type} [AddCommMonoid M] (f : ℕ → M) (base a : ℕ) :
    ∑ k ∈ Finset.range (a + 256), f (base + k)
      = ∑ k ∈ Finset.range a, f (base + k) + ∑ r : Fin 256, f (base + a + r.val) := by
  rw [Finset.sum_range_add, ← Fin.sum_univ_eq_sum_range (fun r => f (base + (a + r))) 256]
  exact congrArg _ (Finset.sum_congr rfl fun r _ => by rw [Nat.add_assoc])

/-- The first tile alone. -/
theorem range_first_tile {M : Type} [AddCommMonoid M] (f : ℕ → M) (base : ℕ) :
    ∑ k ∈ Finset.range 256, f (base + k) = ∑ r : Fin 256, f (base + r.val) :=
  (Fin.sum_univ_eq_sum_range (fun r => f (base + r)) 256).symm

/-- The two half-batch sums of a column add up to the sum over the whole batch. -/
theorem halves (x y : Arr.Idx → EReal) (p : Fin 72) (q : Fin 120) :
    ∑ h : Fin 2, ∑ k ∈ Finset.range 8192, rowSq x y p q (h.val * 8192 + k)
      = ∑ b : Fin 16384, sqd x y (ix3 b p q) := by
  rw [Fin.sum_univ_two]
  have e0 : ∑ k ∈ Finset.range 8192, rowSq x y p q ((0 : Fin 2).val * 8192 + k)
      = ∑ k ∈ Finset.range 8192, rowSq x y p q k :=
    Finset.sum_congr rfl fun k _ => by rw [show (0 : Fin 2).val = 0 from rfl, Nat.zero_mul, Nat.zero_add]
  have e1 : ∑ k ∈ Finset.range 8192, rowSq x y p q ((1 : Fin 2).val * 8192 + k)
      = ∑ k ∈ Finset.range 8192, rowSq x y p q (8192 + k) :=
    Finset.sum_congr rfl fun k _ => by rw [show (1 : Fin 2).val = 1 from rfl, Nat.one_mul]
  rw [e0, e1, ← Finset.sum_range_add (fun k => rowSq x y p q k) 8192 8192,
    ← Fin.sum_univ_eq_sum_range (fun k => rowSq x y p q k) (8192 + 8192)]
  exact Finset.sum_congr rfl fun b _ => rowSq_of_lt x y p q b.val b.isLt

/-- Summing a function of the split index over the indices that keep joint and time fixed is the double sum over
    the coordinate and the batch row. The predicate is given through any map `drop` that returns (joint, time). -/
theorem sum_filter_joint (drop : Split.Idx → Joint.Idx) (hdrop : ∀ i, drop i = ix2 (i 1) (i 3))
    (g : Split.Idx → EReal) (j : Joint.Idx) [DecidablePred fun i => drop i = j] :
    ∑ i ∈ Finset.univ.filter (fun i => drop i = j), g i
      = ∑ d : Fin 3, ∑ b : Fin 16384, g (ix4 b (j 0) d (j 1)) := by
  rw [← Fintype.sum_prod_type' (f := fun (d : Fin 3) (b : Fin 16384) => g (ix4 b (j 0) d (j 1)))]
  symm
  refine Finset.sum_bij (fun (p : Fin 3 × Fin 16384) _ => (ix4 p.2 (j 0) p.1 (j 1) : Split.Idx)) ?_ ?_ ?_ ?_
  · intro p _
    refine Finset.mem_filter.2 ⟨Finset.mem_univ _, ?_⟩
    rw [hdrop]
    exact (eq_ix2 j).symm
  · intro p _ p' _ h
    exact Prod.ext (congrFun h 2) (congrFun h 0)
  · intro i hi
    have hi' := (Finset.mem_filter.1 hi).2
    rw [hdrop] at hi'
    subst hi'
    exact ⟨(i 2, i 0), Finset.mem_univ _, (eq_ix4 i).symm⟩
  · intro p _
    rfl

/-- What both programs do with the [24, 120] array of sums of squares: the square root of each entry, then the sum of
    all 24 × 120 roots from zero. The two shape facts are the programs' own side conditions, passed in. -/
def lossTail (h : Joint.ReducesTo [0, 1] (⟨0, ![]⟩ : Shape)) (h0 : 0 < (⟨0, ![]⟩ : Shape).numel)
    (y : Joint.Idx → EReal) : (⟨0, ![]⟩ : Shape).Idx → EReal :=
  Host.reduceAdd (F := Ideal) (φ := .f32) (Host.sqrt (F := Ideal) (φ := .f32) y)
    (constant (F := Ideal) (⟨0, ![]⟩ : Shape) .f32 0x00000000#32) h h0

end Cert.SumSquares

end
-- ==== Proof.KernelPieces.lean ====
/-
  What one grid point of the kernel leaves behind, as values.

  The kernel body keeps a [72, 120] accumulator in scratch memory. At a point it (i) zeroes the accumulator if the point is
  the first of its half of the batch, (ii) adds to it, entry by entry, the sum over the 256 rows of the point's tile of
  (src - tgt)², and (iii) copies it to the output block if the point is the last of its half. The generated frame runs
  the body once per control case and records the stores it found; here each such record is read back as a plain term:

    first point of a half   : accumulator = payload2 src tgt (zero block)
    middle point            : accumulator = payload2 src tgt (accumulator before)
    last point of a half    : accumulator = payload2 src tgt (accumulator before), output block = payload3 of that

  and the payloads are read at an index on the extended reals:

    payload2 u v a (p, q) = a (p, q) + ∑ b < 256, (u (b, p, q) - v (b, p, q))²
    payload1 (p, q)       = 0
    payload3 a (0, p, q)  = a (p, q).
-/
import proofs.«127281_j43026982371528_1_alg».proof.Proof.Gen.KernelIdeal.Frame
import Idealize.ShloMosaic.Lib.Pipeline.Value
import Idealize.ShloMosaic.Lib.ValueLayout
import Idealize.ShloMosaic.Lib.Tactic
import Idealize.ShloMosaic.PureOps.Ideal.Laws
import proofs.«127281_j43026982371528_1_alg».proof.Proof.SumSquares

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.Acc

open Cert.KernelIdeal Cert.KernelIdeal.Gen

variable {F : FTy → Type} [FloatOps F]

/-- All-zero offsets, in the two ranks the body uses. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The records of each control case, read back

Each proof opens the record of stores the run found for that case: a store through the whole buffer leaves its payload,
and a load of the whole buffer after such a store reads that payload. -/

/-- A middle point: the accumulator ends at the second payload of the two tiles and of what it held before. -/
theorem scratch_B (c : Dev nD) (i : grid0.Coords) (a2 : Memref sig .tc .vmem S256x72x120 .f32) (h2 : a2.IsWhole)
    (a3 : Memref sig .tc .vmem S256x72x120 .f32) (h3 : a3.IsWhole) (a4 : Memref sig .tc .vmem S1x72x120 .f32) (h4 : a4.IsWhole)
    (a5 : Memref sig .tc .vmem S72x120 .f32) (h5 : a5.IsWhole) (hc0 : ¬cond0_0 i) (hc1 : ¬cond0_1 i)
    (x0 x1 : Vec F S256x72x120 .f32) (xs0 : Vec F S72x120 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz2]
  simp only [View.readAt_eq_ld, h2.read_unread, h3.read_unread, h5.read_unread, View.ld_unit_zero (S := S256x72x120) hz3,
    View.ld_unit_zero (S := S72x120) hz2]

/-- A last point of a half: the accumulator, the same. -/
theorem scratch_C (c : Dev nD) (i : grid0.Coords) (a2 : Memref sig .tc .vmem S256x72x120 .f32) (h2 : a2.IsWhole)
    (a3 : Memref sig .tc .vmem S256x72x120 .f32) (h3 : a3.IsWhole) (a4 : Memref sig .tc .vmem S1x72x120 .f32) (h4 : a4.IsWhole)
    (a5 : Memref sig .tc .vmem S72x120 .f32) (h5 : a5.IsWhole) (hc0 : ¬cond0_0 i) (hc1 : cond0_1 i)
    (x0 x1 : Vec F S256x72x120 .f32) (xs0 : Vec F S72x120 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S72x120) hz2]
  simp only [View.readAt_eq_ld, h2.read_unread, h3.read_unread, h5.read_unread, View.ld_unit_zero (S := S256x72x120) hz3,
    View.ld_unit_zero (S := S72x120) hz2]

/-- A last point of a half: the output block is the third payload of the accumulator's new contents. -/
theorem out_C (c : Dev nD) (i : grid0.Coords) (a2 : Memref sig .tc .vmem S256x72x120 .f32) (h2 : a2.IsWhole)
    (a3 : Memref sig .tc .vmem S256x72x120 .f32) (h3 : a3.IsWhole) (a4 : Memref sig .tc .vmem S1x72x120 .f32) (h4 : a4.IsWhole)
    (a5 : Memref sig .tc .vmem S72x120 .f32) (h5 : a5.IsWhole) (hc0 : ¬cond0_0 i) (hc1 : cond0_1 i)
    (x0 x1 : Vec F S256x72x120 .f32) (xs0 : Vec F S72x120 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S1x72x120) hz3, View.readCov_unit_zero (S := S72x120) _ hz2]
  simp only [View.readAt_eq_ld, h2.read_unread, h3.read_unread, h5.read_unread, View.ld_unit_zero (S := S256x72x120) hz3,
    View.ld_unit_zero (S := S72x120) hz2]

/-- A first point of a half: the accumulator is first set to the first payload (zeros), then updated from it. -/
theorem scratch_A (c : Dev nD) (i : grid0.Coords) (a2 : Memref sig .tc .vmem S256x72x120 .f32) (h2 : a2.IsWhole)
    (a3 : Memref sig .tc .vmem S256x72x120 .f32) (h3 : a3.IsWhole) (a4 : Memref sig .tc .vmem S1x72x120 .f32) (h4 : a4.IsWhole)
    (a5 : Memref sig .tc .vmem S72x120 .f32) (h5 : a5.IsWhole) (hc0 : cond0_0 i) (hc1 : ¬cond0_1 i)
    (x0 x1 : Vec F S256x72x120 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S72x120) hz2, View.readCov_unit_zero (S := S72x120) _ hz2]
  simp only [View.readAt_eq_ld, h2.read_unread, h3.read_unread, View.ld_unit_zero (S := S256x72x120) hz3]

/-! ## The payloads read at an index, on the extended reals -/

/-- The index of the tile that the reduction over the batch axis visits: row `b` above entry (p, q). -/
theorem lift_batch (p : Fin 72) (q : Fin 120) (b : Fin 256) :
    reduces_S256x72x120_S72x120.lift (ix2 p q) b = ix3 b p q := by
  funext a
  match a with
  | ⟨0, _⟩ => rfl
  | ⟨1, _⟩ => rfl
  | ⟨2, _⟩ => rfl

/-- The second payload at an entry: what was there plus the tile's sum of squared differences above that entry. -/
theorem pay2_apply (v3 v4 : Vec Ideal S256x72x120 .f32) (v6 : Vec Ideal S72x120 .f32) (p : Fin 72) (q : Fin 120) :
    k0_pay2 (F := Ideal) v3 v4 v6 (ix2 p q)
      = v6 (ix2 p q) + ∑ b : Fin 256, Cert.SumSquares.sqd v3 v4 (ix3 b p q) := by
  have e : k0_pay2 (F := Ideal) v3 v4 v6
      = addf v6 (multiReduction .add [0] S72x120 (mulf (subf v3 v4) (subf v3 v4)) 0x00000000#32
          reduces_S256x72x120_S72x120 (.inl rfl) rfl) := shapeCast_self _ _
  rw [e]
  refine (addf_apply _ _ _).trans (congrArg (v6 (ix2 p q) + ·) ?_)
  refine (Ideal.multiReduction_add_single _ _ reduces_S256x72x120_S72x120 _ _ (ix2 p q)).trans ?_
  refine Finset.sum_congr rfl fun b _ => ?_
  exact congrArg (Cert.SumSquares.sqd v3 v4) (lift_batch p q b)

/-- The first payload is the zero block. -/
theorem pay1_apply (j : S72x120.Idx) : k0_pay1 (F := Ideal) j = 0 := by
  have e : k0_pay1 (F := Ideal) = broadcast S72x120 (Scalar.ofBits (F := Ideal) .f32 0x00000000#32) := shapeCast_self _ _
  rw [e]
  exact Ideal.ofBits_zero_f32

/-- The third payload only adds a leading axis of length one. -/
theorem pay3_apply (v16 : Vec Ideal S72x120 .f32) (u : Fin 1) (p : Fin 72) (q : Fin 120) :
    k0_pay3 (F := Ideal) v16 (ix3 u p q) = v16 (ix2 p q) :=
  shapeCast_ab_1ab_apply v16 shapeCasts_S72x120_S1x72x120 u p q

end Cert.KernelIdeal.Acc

end
-- ==== Proof.KernelSum.lean ====
/-
  The kernel's output array, as values on the extended reals.

  The grid has 64 points, numbered half-major: point `n` is step `n % 32` of half `n / 32` of the batch, and both input
  windows sit at tile `n` of the batch axis there (rows `256 n … 256 n + 255`). The accumulator is reset at step 0 of each half and
  the output block of the half is written after step 31. So:

    * after point `n` the accumulator holds, at (p, q), the sum of (src - tgt)² over the rows
      `8192 (n / 32) … 8192 (n / 32) + 256 (n % 32 + 1) - 1` of column (p, q)       (`acc_eq`, induction on the point);
    * the output array [2, 72, 120] ends holding the two half-batch sums of every column (`final_out`): block `h` is
      written at point `32 h + 31`, and the two blocks cover the array.
-/
import proofs.«127281_j43026982371528_1_alg».proof.Proof.KernelPieces

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.Acc

open Cert.KernelIdeal Cert.KernelIdeal.Gen Cert.SumSquares

variable (m : (ℓ : Loc nD τ sig) → Buf (Elt Ideal) ℓ) (ρ : Dev nD → PrngReg)

/-- The index maps over the grid: at point `t` both input windows are at tile `t` of the batch axis (tile
    `32 · half + step`, and the points are numbered half-major), the output window at block `t / 32`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val / 32 ∧ win0_2.index t (1 : Fin 3) = 0 ∧ win0_2.index t (2 : Fin 3) = 0 :=
  (by decide +kernel : ∀ t : Fin grid0.N, _)

/-- The two argument arrays as the region finds them. -/
abbrev X0 (c : Dev nD) : Arr.Idx → EReal := V m c main_arg0
abbrev X1 (c : Dev nD) : Arr.Idx → EReal := V m c main_arg1

/-- Row `b` of the first input's tile at point `t` is row `256 t + b` of the first argument. -/
theorem iblk0_apply (c : Dev nD) (t : Fin cfg0.N) (b : Fin 256) (p : Fin 72) (q : Fin 120)
    (hb : t.val * 256 + b.val < 16384) :
    (iblk m c 0 t : Vec Ideal S256x72x120 .f32) (ix3 b p q) = X0 m c (ix3 ⟨t.val * 256 + b.val, hb⟩ p q) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 256 + 1 * b.val = t.val * 256 + b.val; rw [e0]; omega
  | ⟨1, _⟩ => show win0_0.index t (1 : Fin 3) * 72 + 1 * p.val = p.val; rw [e1]; omega
  | ⟨2, _⟩ => show win0_0.index t (2 : Fin 3) * 120 + 1 * q.val = q.val; rw [e2]; omega

/-- The same for the second input. -/
theorem iblk1_apply (c : Dev nD) (t : Fin cfg0.N) (b : Fin 256) (p : Fin 72) (q : Fin 120)
    (hb : t.val * 256 + b.val < 16384) :
    (iblk m c 1 t : Vec Ideal S256x72x120 .f32) (ix3 b p q) = X1 m c (ix3 ⟨t.val * 256 + b.val, hb⟩ p q) := by
  obtain ⟨-, -, -, e0, e1, e2, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 256 + 1 * b.val = t.val * 256 + b.val; rw [e0]; omega
  | ⟨1, _⟩ => show win0_1.index t (1 : Fin 3) * 72 + 1 * p.val = p.val; rw [e1]; omega
  | ⟨2, _⟩ => show win0_1.index t (2 : Fin 3) * 120 + 1 * q.val = q.val; rw [e2]; omega

/-- The tile's contribution at point `t` to entry (p, q): rows `256 t … 256 t + 255` of the column's squared differences. -/
theorem tile_eq (c : Dev nD) (t : Fin cfg0.N) (p : Fin 72) (q : Fin 120) :
    ∑ b : Fin 256, sqd (iblk m c 0 t : Vec Ideal S256x72x120 .f32) (iblk m c 1 t : Vec Ideal S256x72x120 .f32) (ix3 b p q)
      = ∑ r : Fin 256, rowSq (X0 m c) (X1 m c) p q (t.val * 256 + r.val) := by
  have hN : t.val < 64 := lt_of_lt_of_eq t.isLt N_0
  refine Finset.sum_congr rfl fun b _ => ?_
  have hb : t.val * 256 + b.val < 16384 := by have := b.isLt; omega
  rw [rowSq_of_lt _ _ p q _ hb]
  exact sqd_congr _ _ _ _ _ _ (iblk0_apply m c t b p q hb) (iblk1_apply m c t b p q hb)

/-! ## The accumulator after each point -/

/-- At the first point of a half the accumulator ends at the tile's contribution alone (zero plus it). -/
theorem acc_first (c : Dev nD) (t : Fin cfg0.N) (h0 : t.val % 32 = 0) (p : Fin 72) (q : Fin 120) :
    (outsAt0 m c t.val t.isLt).2 (ix2 p q) = ∑ b : Fin 256, sqd (iblk m c 0 t : Vec Ideal S256x72x120 .f32) (iblk m c 1 t : Vec Ideal S256x72x120 .f32) (ix3 b p q) := by
  have h1 : ¬t.val % 32 = 31 := by omega
  refine (congrFun (congrArg Prod.snd (outsAt0_A m c t h0 h1)) (ix2 p q)).trans ?_
  refine (congrFun (scratch_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h))
    (iblk m c 0 t) (iblk m c 1 t)) (ix2 p q)).trans ?_
  refine (pay2_apply (iblk m c 0 t) (iblk m c 1 t) (k0_pay1 (F := Ideal)) p q).trans ?_
  rw [pay1_apply, zero_add]

/-- At any other point it ends at what the point before left plus the tile's contribution. -/
theorem acc_step (c : Dev nD) (t : Fin cfg0.N) (h0 : ¬t.val % 32 = 0) (p : Fin 72) (q : Fin 120) :
    (outsAt0 m c t.val t.isLt).2 (ix2 p q) = (outsAt0 m c (t.val - 1) (Nat.lt_of_le_of_lt (Nat.sub_le _ _) t.isLt)).2 (ix2 p q) + ∑ b : Fin 256, sqd (iblk m c 0 t : Vec Ideal S256x72x120 .f32) (iblk m c 1 t : Vec Ideal S256x72x120 .f32) (ix3 b p q) := by
  by_cases h1 : t.val % 32 = 31
  · refine (congrFun (congrArg Prod.snd (outsAt0_C m c t h0 h1)) (ix2 p q)).trans ?_
    refine (congrFun (scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
      (iblk m c 0 t) (iblk m c 1 t) (outsAt0 m c (t.val - 1) (Nat.lt_of_le_of_lt (Nat.sub_le _ _) t.isLt)).2) (ix2 p q)).trans ?_
    exact pay2_apply (iblk m c 0 t) (iblk m c 1 t) (outsAt0 m c (t.val - 1) (Nat.lt_of_le_of_lt (Nat.sub_le _ _) t.isLt)).2 p q
  · refine (congrFun (congrArg Prod.snd (outsAt0_B m c t h0 h1)) (ix2 p q)).trans ?_
    refine (congrFun (scratch_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h))
      (iblk m c 0 t) (iblk m c 1 t) (outsAt0 m c (t.val - 1) (Nat.lt_of_le_of_lt (Nat.sub_le _ _) t.isLt)).2) (ix2 p q)).trans ?_
    exact pay2_apply (iblk m c 0 t) (iblk m c 1 t) (outsAt0 m c (t.val - 1) (Nat.lt_of_le_of_lt (Nat.sub_le _ _) t.isLt)).2 p q

/-- The closed form at a first point of a half. -/
theorem acc_eq_first (c : Dev nD) (t : Fin cfg0.N) (h0 : t.val % 32 = 0) (p : Fin 72) (q : Fin 120) :
    (outsAt0 m c t.val t.isLt).2 (ix2 p q)
      = ∑ k ∈ Finset.range ((t.val % 32 + 1) * 256), rowSq (X0 m c) (X1 m c) p q (t.val / 32 * 8192 + k) := by
  rw [acc_first m c t h0 p q, tile_eq m c t p q, show (t.val % 32 + 1) * 256 = 256 by omega,
    show t.val / 32 * 8192 = t.val * 256 by omega]
  exact (range_first_tile _ _).symm

/-- THE ACCUMULATOR after point `n`, which is step `n % 32` of half `n / 32`: at (p, q) the sum of the column's squared
    differences over the rows of the half seen so far, rows `8192 (n / 32) … 8192 (n / 32) + 256 (n % 32 + 1) - 1`.
    By induction on the point. -/
theorem acc_eq (c : Dev nD) (n : ℕ) : ∀ (h : n < cfg0.N) (p : Fin 72) (q : Fin 120),
    (outsAt0 m c n h).2 (ix2 p q)
      = ∑ k ∈ Finset.range ((n % 32 + 1) * 256), rowSq (X0 m c) (X1 m c) p q (n / 32 * 8192 + k) := by
  induction n with
  | zero => intro h p q; exact acc_eq_first m c ⟨0, h⟩ rfl p q
  | succ n ih =>
    intro h p q
    by_cases h0 : (n + 1) % 32 = 0
    · exact acc_eq_first m c ⟨n + 1, h⟩ h0 p q
    · refine (acc_step m c ⟨n + 1, h⟩ h0 p q).trans ?_
      rw [tile_eq m c ⟨n + 1, h⟩ p q]
      have hprev : (outsAt0 m c ((⟨n + 1, h⟩ : Fin cfg0.N).val - 1) (Nat.lt_of_le_of_lt (Nat.sub_le _ _) h)).2 (ix2 p q)
          = ∑ k ∈ Finset.range ((n % 32 + 1) * 256), rowSq (X0 m c) (X1 m c) p q (n / 32 * 8192 + k) :=
        ih (Nat.lt_of_succ_lt h) p q
      rw [hprev]
      dsimp only
      rw [show ((n + 1) % 32 + 1) * 256 = (n % 32 + 1) * 256 + 256 by omega,
        show (n + 1) / 32 * 8192 = n / 32 * 8192 by omega, range_add_tile,
        show n / 32 * 8192 + (n % 32 + 1) * 256 = (n + 1) * 256 by omega]

/-! ## The output array -/

/-- What the last point of a half copies out is the accumulator it has just updated, under a leading unit axis. -/
theorem out_last (c : Dev nD) (t : Fin cfg0.N) (h0 : ¬t.val % 32 = 0) (h1 : t.val % 32 = 31) :
    (outsAt0 m c t.val t.isLt).1 = k0_pay3 (F := Ideal) (outsAt0 m c t.val t.isLt).2 := by
  rw [outsAt0_C m c t h0 h1]
  dsimp only
  rw [out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
      (iblk m c 0 t) (iblk m c 1 t) (outsAt0 m c (t.val - 1) (Nat.lt_of_le_of_lt (Nat.sub_le _ _) t.isLt)).2,
    scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
      (iblk m c 0 t) (iblk m c 1 t) (outsAt0 m c (t.val - 1) (Nat.lt_of_le_of_lt (Nat.sub_le _ _) t.isLt)).2]

/-- The half-batch sum of column (p, q): rows `8192 h … 8192 h + 8191`. -/
def halfCol (c : Dev nD) (h : Fin 2) (p : Fin 72) (q : Fin 120) : EReal :=
  ∑ k ∈ Finset.range 8192, rowSq (X0 m c) (X1 m c) p q (h.val * 8192 + k)

/-- The [2, 72, 120] array of half-batch sums. -/
def halfSq (c : Dev nD) : (⟨3, ![2, 72, 120]⟩ : Shape).Idx → EReal := fun i => halfCol m c (i 0) (i 1) (i 2)

/-- After the last point of half `t / 32` the copied-out block holds that half's sums. -/
theorem out_last_apply (c : Dev nD) (t : Fin cfg0.N) (h1 : t.val % 32 = 31) (hh : t.val / 32 < 2) (u : Fin 1) (p : Fin 72)
    (q : Fin 120) :
    k0_pay3 (F := Ideal) (outsAt0 m c t.val t.isLt).2 (ix3 u p q) = halfCol m c ⟨t.val / 32, hh⟩ p q := by
  rw [pay3_apply, acc_eq m c t.val t.isLt p q, show (t.val % 32 + 1) * 256 = 8192 by omega]
  rfl

/-- Block `t / 32` of the array of half-batch sums, read through the output window at point `t`. -/
theorem read_half (c : Dev nD) (t : Fin cfg0.N) (hh : t.val / 32 < 2) (u : Fin 1) (p : Fin 72) (q : Fin 120) :
    (((cfg0.win 2).blk t).view.read (Elt Ideal) (halfSq m c) : Vec Ideal S1x72x120 .f32) (ix3 u p q)
      = halfCol m c ⟨t.val / 32, hh⟩ p q := by
  obtain ⟨-, -, -, -, -, -, e0, e1, e2⟩ := idx_facts t
  rw [View.read_apply]
  show halfSq m c (((cfg0.win 2).blk t).view.emb (ix3 u p q)) = _
  have hemb : ((cfg0.win 2).blk t).view.emb (ix3 u p q) = ix3 ⟨t.val / 32, hh⟩ p q := by
    funext a
    apply Fin.ext
    match a with
    | ⟨0, _⟩ => show win0_2.index t (0 : Fin 3) * 1 + 1 * u.val = t.val / 32; rw [e0]; omega
    | ⟨1, _⟩ => show win0_2.index t (1 : Fin 3) * 72 + 1 * p.val = p.val; rw [e1]; omega
    | ⟨2, _⟩ => show win0_2.index t (2 : Fin 3) * 120 + 1 * q.val = q.val; rw [e2]; omega
  rw [hemb]
  rfl

/-- WHAT A WRITE-BACK WRITES: at the last point of each half, that half's block of the array of half-batch sums. -/
theorem flushed_eq (c : Dev nD) (t : Fin cfg0.N) (hf : (cfg0.win 2).flush t = true) :
    (dats m 0 c).flushed 2 t = ((cfg0.win 2).blk t).view.read (Elt Ideal) (halfSq m c) := by
  have h1 : t.val % 32 = 31 := (flush0_2 t).mp hf
  have h0 : ¬t.val % 32 = 0 := by omega
  have hN : t.val < 64 := lt_of_lt_of_eq t.isLt N_0
  have hh : t.val / 32 < 2 := by omega
  show (cfg0.win 2).cut (grid0.coords t) ((dats m 0 c).after 2 t) = _
  rw [after0_2, out_last m c t h0 h1]
  funext j
  obtain ⟨u, p, q, rfl⟩ : ∃ (u : Fin 1) (p : Fin 72) (q : Fin 120), j = ix3 u p q := ⟨j 0, j 1, j 2, eq_ix3 j⟩
  exact (out_last_apply m c t h1 hh u p q).trans (read_half m c t hh u p q).symm

/-- An index of the output array is in point `t`'s block iff each coordinate is in the block's range on its axis. -/
theorem mem_blk (t : Fin cfg0.N) (i : S2x72x120.Idx) :
    i ∈ ((cfg0.win 2).blk t).view.set ↔ ∀ a : Fin 3, win0_2.index t a * S1x72x120.size a ≤ (i a).val
      ∧ (i a).val < win0_2.index t a * S1x72x120.size a + S1x72x120.size a := by
  show i ∈ ((View.whole main_v0).slice (win0_2.rect t)).set ↔ _
  rw [View.set_slice_whole, Rect.mem_set_unit]
  exact Iff.rfl

/-- THE OUTPUT ARRAY after the run: the two half-batch sums of every column. Block `h` is written at point `32 h + 31`. -/
theorem final_out (c : Dev nD) : (dats m 0 c).arrAt 2 cfg0.N = halfSq m c :=
  (dats m 0 c).arrAt_eq_of_cover 2 (halfSq m c) (flushed_eq m c) fun i => by
    have hi0 : (i 0).val < 2 := (i 0).isLt
    have hi1 : (i 1).val < 72 := (i 1).isLt
    have hi2 : (i 2).val < 120 := (i 2).isLt
    have hlt : (i 0).val * 32 + 31 < cfg0.N := by rw [show cfg0.N = 64 from N_0]; omega
    obtain ⟨-, -, -, -, -, -, e0, e1, e2⟩ := idx_facts ⟨(i 0).val * 32 + 31, hlt⟩
    refine ⟨⟨(i 0).val * 32 + 31, hlt⟩, (flush0_2 _).mpr (by show ((i 0).val * 32 + 31) % 32 = 31; omega), ?_⟩
    rw [mem_blk]
    intro a
    match a with
    | ⟨0, _⟩ =>
      show win0_2.index ⟨(i 0).val * 32 + 31, hlt⟩ (0 : Fin 3) * 1 ≤ (i 0).val
        ∧ (i 0).val < win0_2.index ⟨(i 0).val * 32 + 31, hlt⟩ (0 : Fin 3) * 1 + 1
      rw [e0]; show ((i 0).val * 32 + 31) / 32 * 1 ≤ (i 0).val ∧ (i 0).val < ((i 0).val * 32 + 31) / 32 * 1 + 1; omega
    | ⟨1, _⟩ =>
      show win0_2.index ⟨(i 0).val * 32 + 31, hlt⟩ (1 : Fin 3) * 72 ≤ (i 1).val
        ∧ (i 1).val < win0_2.index ⟨(i 0).val * 32 + 31, hlt⟩ (1 : Fin 3) * 72 + 72
      rw [e1]; omega
    | ⟨2, _⟩ =>
      show win0_2.index ⟨(i 0).val * 32 + 31, hlt⟩ (2 : Fin 3) * 120 ≤ (i 2).val
        ∧ (i 2).val < win0_2.index ⟨(i 0).val * 32 + 31, hlt⟩ (2 : Fin 3) * 120 + 120
      rw [e2]; omega

end Cert.KernelIdeal.Acc

end
-- ==== Proof.KernelResult.lean ====
/-
  The kernel program's result.

  After the region the host lines read the [2, 72, 120] output array A and compute

      v1 (p, q) = 0 + A (0, p, q) + A (1, p, q),   v2 (n, d, t) = v1 (3 n + d, t),   v3 (n, t) = 0 + ∑ d < 3, v2 (n, d, t),

  then the square roots and their total. With A the array of half-batch sums, v1 is the whole-batch sum of each column and
  v3 the per-joint sum of squares; the remaining two steps are the ones the reference ends with, and are never opened.
-/
import proofs.«127281_j43026982371528_1_alg».proof.Proof.KernelSum
import Idealize.ShloMosaic.Lib.StableHlo.Run

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.Acc

open Cert.KernelIdeal Cert.KernelIdeal.Gen Cert.SumSquares

variable (m : (ℓ : Loc nD τ sig) → Buf (Elt Ideal) ℓ) (ρ : Dev nD → PrngReg)

/-! ## After the region

The host lines after the kernel: sum the two halves, view the 72 channels as 24 joints × 3 coordinates, sum the
coordinates, take square roots, sum everything. -/

/-- The first three of those steps, from the [2, 72, 120] array to the [24, 120] array of per-joint sums. -/
def hostJoint (A : (⟨S2x72x120, .f32⟩ : BufTy).Contents (Elt Ideal)) : (⟨S24x120, .f32⟩ : BufTy).Contents (Elt Ideal) :=
  Host.reduceAdd (F := Ideal)
    (shapeCast S24x3x120 (Host.reduceAdd (F := Ideal) A (constant (F := Ideal) S_ .f32 0x00000000#32)
      reducesTo_S2x72x120_S72x120_d0 h_S_) shapeCasts_S72x120_S24x3x120)
    (constant (F := Ideal) S_ .f32 0x00000000#32) reducesTo_S24x3x120_S24x120_d1 h_S_

/-- The program's result is the host lines applied to the output array as the region leaves it. -/
theorem tail_raw (c : Dev nD) :
    Pipeline.afterTail₀ cfgs (dats m) 0 (V0 m) [hostOps1] c main_v5
      = lossTail reducesTo_S24x120_S_d0_1 h_S_ (hostJoint
          (Pipeline.withArrays (cfgs 0).spec c (V0 m c) (fun w => (dats m 0 c).arrAt w (cfgs 0).N) (Proc.devRef .tc main_v0))) := by
  unfold Pipeline.afterTail₀ lossTail hostJoint
  show StableHlo.after hostOps1 _ (Proc.devRef .tc main_v5) = _
  after_results
  rfl

/-- The output array as the region leaves it is the array of half-batch sums. -/
theorem v0_after (c : Dev nD) :
    Pipeline.withArrays (cfgs 0).spec c (V0 m c) (fun w => (dats m 0 c).arrAt w (cfgs 0).N) (Proc.devRef .tc main_v0)
      = halfSq m c :=
  (Pipeline.withArrays_arr spec0 launch0.win.arr_inj c _ _ 2).trans (final_out m c)

/-- The inserted index of the sum over the two halves, and of the sum over a joint's three coordinates. -/
theorem lift_half (p : Fin 72) (q : Fin 120) (h : Fin 2) :
    (by decide : S2x72x120.Reduces [0] S72x120).lift (ix2 p q) h = ix3 h p q := by
  funext a
  match a with
  | ⟨0, _⟩ => rfl
  | ⟨1, _⟩ => rfl
  | ⟨2, _⟩ => rfl

theorem lift_coord (n : Fin 24) (t' : Fin 120) (d : Fin 3) :
    (by decide : S24x3x120.Reduces [1] S24x120).lift (ix2 n t') d = ix3 n d t' := by
  funext a
  match a with
  | ⟨0, _⟩ => rfl
  | ⟨1, _⟩ => rfl
  | ⟨2, _⟩ => rfl

/-- An entry of the array of half-batch sums. -/
theorem halfSq_ix3 (c : Dev nD) (h : Fin 2) (p : Fin 72) (q : Fin 120) :
    halfSq m c (ix3 h p q) = ∑ k ∈ Finset.range 8192, rowSq (X0 m c) (X1 m c) p q (h.val * 8192 + k) := rfl

/-- Summing the two halves of a column gives the sum over the whole batch. -/
theorem halves_apply (c : Dev nD) (p : Fin 72) (q : Fin 120) :
    Host.reduceAdd (F := Ideal) (halfSq m c) (constant (F := Ideal) S_ .f32 0x00000000#32)
        reducesTo_S2x72x120_S72x120_d0 h_S_ (ix2 p q)
      = ∑ b : Fin 16384, sqd (X0 m c) (X1 m c) (ix3 b p q) := by
  show Ideal.hostReduceAdd reducesTo_S2x72x120_S72x120_d0 (halfSq m c) (Ideal.ofBits .f32 0x00000000#32) (ix2 p q) = _
  refine (Ideal.hostReduceAdd_single _ (by decide : S2x72x120.Reduces [0] S72x120) _ _ _).trans ?_
  rw [Ideal.ofBits_zero_f32, zero_add]
  refine Eq.trans ?_ (halves (X0 m c) (X1 m c) p q)
  show ∑ h : Fin 2, halfSq m c ((by decide : S2x72x120.Reduces [0] S72x120).lift (ix2 p q) h) = _
  refine Finset.sum_congr rfl fun h _ => ?_
  rw [lift_half p q h]
  exact halfSq_ix3 m c h p q

/-- The host lines turn the array of half-batch sums into the per-joint sums of squares. -/
theorem joint_eq (c : Dev nD) : hostJoint (halfSq m c) = jointSq (X0 m c) (X1 m c) := by
  funext j
  obtain ⟨n, t', rfl⟩ : ∃ (n : Fin 24) (t' : Fin 120), j = ix2 n t' := ⟨j 0, j 1, eq_ix2 j⟩
  unfold hostJoint
  show Ideal.hostReduceAdd reducesTo_S24x3x120_S24x120_d1 _ (Ideal.ofBits .f32 0x00000000#32) (ix2 n t') = _
  refine (Ideal.hostReduceAdd_single _ (by decide : S24x3x120.Reduces [1] S24x120) _ _ _).trans ?_
  rw [Ideal.ofBits_zero_f32, zero_add]
  unfold jointSq
  show ∑ d : Fin 3, _ = ∑ d : Fin 3, _
  refine Finset.sum_congr rfl fun d _ => ?_
  refine (congrArg _ (lift_coord n t' d)).trans ?_
  refine (shapeCast_apply _ shapeCasts_S72x120_S24x3x120 (ix3 n d t') (ix2 (chan n d) t') ?_).trans ?_
  · rw [Shape.rowMajor_val_two, Shape.rowMajor_val_three]
    show (3 * n.val + d.val) * 120 + t'.val = (n.val * 3 + d.val) * 120 + t'.val
    omega
  · exact halves_apply m c (chan n d) t'

/-- THE KERNEL PROGRAM'S RESULT: the shared last steps applied to the per-joint sums of squares of the arguments. -/
theorem result_eq (c : Dev nD) :
    Pipeline.afterTail₀ cfgs (dats m) 0 (V0 m) [hostOps1] c main_v5
      = lossTail reducesTo_S24x120_S_d0_1 h_S_ (jointSq (X0 m c) (X1 m c)) := by
  rw [tail_raw m c, v0_after m c, joint_eq m c]

/-- The result buffer is no array of the pipeline. -/
theorem v5_rest : main_v5 ∈ Pipeline.restRefs sig (cfgs 0).spec :=
  Pipeline.mem_restRefs_of main_v5 rfl (fun w => by fin_cases w <;> decide)

/-- The run, read: the result at the shared last steps of the per-joint sums of squares, the arguments unchanged. -/
theorem run : θ_run defs (onTc (τ := τ) (main (F := Ideal))) ⟨m, fun _ => 0, ρ⟩ fun r => ∀ c : Dev nD,
      r.2.mem ((c.tc : Thread nD τ).loc main_v5)
        = lossTail reducesTo_S24x120_S_d0_1 h_S_ (jointSq (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 v5_rest).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Acc

end
-- ==== Proof.ReferenceSum.lean ====
/-
  The reference program's result as the shared last steps applied to the per-joint sums of squares.

  The reference subtracts the two arrays, views the 72 channels as 24 joints × 3 coordinates, squares, and sums over
  the batch axis and the coordinate axis at once. Read at (n, t) on the extended reals that double-axis sum is zero plus the
  sum over all (b, n', d, t') with (n', t') = (n, t) of the squared difference at (b, 3 n' + d, t'): the split view's entry
  (b, n, d, t) is the array's entry (b, 3 n + d, t), both sitting at the same row-major position. Re-indexed by (d, b)
  this is `jointSq`. The square root and the final sum are the shared last steps.
-/
import proofs.«127281_j43026982371528_1_alg».proof.Proof.Gen.ReferenceIdeal.Read
import proofs.«127281_j43026982371528_1_alg».proof.Proof.SumSquares
import Idealize.ShloMosaic.PureOps.Ideal.Laws

noncomputable section

open Idealize.ShloMosaic Idealize.ShloMosaic.TcCoe Idealize.SL.Sem
open Idealize.ShloMosaic.ValueIdx

namespace Cert.ReferenceIdeal.Joint

open Cert.ReferenceIdeal Cert.ReferenceIdeal.Gen Cert.ReferenceIdeal.Read Cert.SumSquares

/-- Dropping the batch and coordinate axes of a split index keeps (joint, time). -/
theorem drop_eq (i : S16384x24x3x120.Idx) : reducesTo_S16384x24x3x120_S24x120_d0_2.drop i = ix2 (i 1) (i 3) := by
  funext b
  match b with
  | ⟨0, _⟩ => rfl
  | ⟨1, _⟩ => rfl

/-- The split view's entry (b, n, d, t) is the array's entry (b, 3 n + d, t). -/
theorem idx_split (b : Fin 16384) (n : Fin 24) (d : Fin 3) (t : Fin 120) :
    idx_main_v1 (ix4 b n d t) = ix3 b (chan n d) t := by
  have hb := b.isLt; have hn := n.isLt; have hd := d.isLt; have ht := t.isLt
  funext a
  apply Fin.ext
  match a with
  | ⟨0, _⟩ => show (((b.val * 24 + n.val) * 3 + d.val) * 120 + t.val) / 8640 = b.val; omega
  | ⟨1, _⟩ => show (((b.val * 24 + n.val) * 3 + d.val) * 120 + t.val) / 120 % 72 = 3 * n.val + d.val; omega
  | ⟨2, _⟩ => show (((b.val * 24 + n.val) * 3 + d.val) * 120 + t.val) % 120 = t.val; omega

/-- The squared difference the reference sums, at a split index. -/
theorem v2_split (x0 x1 : (⟨S16384x72x120, .f32⟩ : BufTy).Contents (Elt Ideal)) (b : Fin 16384) (n : Fin 24) (d : Fin 3)
    (t : Fin 120) : val_main_v2 (F := Ideal) x0 x1 (ix4 b n d t) = sqd x0 x1 (ix3 b (chan n d) t) := by
  rw [val_main_v2_apply, val_main_v1_apply, val_main_v0_apply, idx_split]
  rfl

/-- The reference's double-axis sum is the per-joint sum of squares. -/
theorem v3_eq (x0 x1 : (⟨S16384x72x120, .f32⟩ : BufTy).Contents (Elt Ideal)) :
    val_main_v3 (F := Ideal) x0 x1 = jointSq x0 x1 := by
  funext j
  show Ideal.hostReduceAdd reducesTo_S16384x24x3x120_S24x120_d0_2 (val_main_v2 (F := Ideal) x0 x1)
    (Ideal.ofBits .f32 0x00000000#32) j = _
  unfold Ideal.hostReduceAdd
  rw [Ideal.ofBits_zero_f32, zero_add, sum_filter_joint _ drop_eq _ j]
  exact Finset.sum_congr rfl fun d _ => Finset.sum_congr rfl fun b _ => v2_split x0 x1 b (j 0) d (j 1)

/-- The reference's result: the shared last steps applied to the per-joint sums of squares. -/
theorem result_eq (x0 x1 : (⟨S16384x72x120, .f32⟩ : BufTy).Contents (Elt Ideal)) :
    val_main_v5 (F := Ideal) x0 x1 = lossTail reducesTo_S24x120_S_d0_1 h_S_ (jointSq x0 x1) := by
  unfold val_main_v5 val_main_v4 val_main_cst_0 lossTail
  rw [v3_eq]

end Cert.ReferenceIdeal.Joint

end
-- ==== Proof.lean ====
/-
  The certificate of the per-joint loss kernel against its jnp reference.

  Both programs compute, for src, tgt of shape [16384, 72, 120] (batch, 24 joints × 3 coordinates, time),

      ∑ n < 24, ∑ t < 120, sqrt ( ∑ d < 3, ∑ b < 16384, (src (b, 3 n + d, t) - tgt (b, 3 n + d, t))² ).

  The kernel sums the squared differences over the batch in two halves of 32 tiles of 256 rows, keeping a running
  [72, 120] accumulator per half; the host lines after it add the two halves, group the channels by joint, add the three
  coordinates, take square roots and sum. The reference sums over batch and coordinate in one step. On the extended reals
  the two agree because finite sums may be regrouped and re-indexed freely (addition is associative and commutative
  there, at the infinities too), and from the [24, 120] array on the two programs do the same thing. No finiteness of
  the inputs is used.

  The three frames are the generated ones (the reference's is its run with the result dropped), the idealization
  rewrote nothing, and the value claim puts the kernel program's run beside the reference's run, both at the shared last
  steps applied to the per-joint sums of squares.
-/
import proofs.«127281_j43026982371528_1_alg».proof.Defs
import proofs.«127281_j43026982371528_1_alg».proof.Proof.Gen.Kernel
import proofs.«127281_j43026982371528_1_alg».proof.Proof.Gen.Kernel.Frame
import proofs.«127281_j43026982371528_1_alg».proof.Proof.Gen.KernelIdeal
import proofs.«127281_j43026982371528_1_alg».proof.Proof.Gen.KernelIdeal.Frame
import proofs.«127281_j43026982371528_1_alg».proof.Proof.Gen.ReferenceIdeal
import proofs.«127281_j43026982371528_1_alg».proof.Proof.Gen.Pre_finite_inputs
import proofs.«127281_j43026982371528_1_alg».proof.Proof.Gen.ReferenceIdeal.Run
import proofs.«127281_j43026982371528_1_alg».proof.Proof.Gen.ReferenceIdeal.Read
import proofs.«127281_j43026982371528_1_alg».proof.Proof.KernelResult
import proofs.«127281_j43026982371528_1_alg».proof.Proof.ReferenceSum
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the shared last steps applied to the per-joint sums of squares of arguments that agree. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Joint.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
